-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.sign_bit.Statement Cert.KernelIdeal.S128x8192 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S128x8192 : Shape := ⟨2, ![128, 8192]⟩
abbrev S128 : Shape := ⟨1, ![128]⟩
abbrev S128x1 : Shape := ⟨2, ![128, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  broadcasts_S128x1_S128x8192 : S128x1.Broadcasts S128x8192
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .i1⟩
  | .hbm, ⟨21, _⟩ => ⟨S8192x8192, .i32⟩
  | .hbm, ⟨22, _⟩ => ⟨S_, .i32⟩
  | .hbm, ⟨23, _⟩ => ⟨S8192, .i32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x8192, .f32⟩
  | .hbm, ⟨41, _⟩ => ⟨S8192x8192, .i1⟩
  | .hbm, ⟨42, _⟩ => ⟨S8192x8192, .f32⟩
  | .hbm, ⟨43, _⟩ => ⟨S8192x1, .f32⟩
  | .hbm, ⟨44, _⟩ => ⟨S8192x8192, .f32⟩
  | .hbm, ⟨45, _⟩ => ⟨S8192x8192, .i1⟩
  | .hbm, ⟨46, _⟩ => ⟨S8192x8192, .f32⟩
  | .hbm, ⟨47, _⟩ => ⟨S8192x8192, .f32⟩
  | .hbm, ⟨48, _⟩ => ⟨S8192x1, .f32⟩
  | .hbm, ⟨49, _⟩ => ⟨S8192x8192, .f32⟩
  | .hbm, ⟨50, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_cst_3 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_cst_6 : Ref sig .tc := ⟨.hbm, 32, rfl⟩
abbrev main_cst_7 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  natLt_1_32 : 1 < 32
  bcast_S_S8192x8192 : S_.BroadcastsInDim S8192x8192 (![] : Fin 0 → Fin S8192x8192.rank)

variable [Facts₀]

class Facts : Prop extends Facts₀ where

variable [Facts]
-- ==== Proof.LibBitCount.lean ====
/-
  Counting one-bit words.

  A one-bit word widened to 32 bits is the number 0 or 1, so a 32-bit two's-complement sum of fewer than 2^31 of them
  never wraps around: read back as a signed integer, and that integer as an extended real, the sum is the sum of the
  bits' own values. This is the step between "convert every bit, then add the numbers" and "add the bits as integers,
  then convert the total".
-/
import Idealize.ShloMosaic.PureOps.Reduce
import Idealize.ShloMosaic.PureOps.Ideal

namespace Cert.BitCount

open Idealize.ShloMosaic

/-- The value of a one-bit word as an extended real: 0 or 1. -/
def ind (b : BitVec 1) : EReal := ((b.toNat : ℝ) : EReal)

theorem ind_one : ind 1#1 = 1 := by
  show (((1 : ℕ) : ℝ) : EReal) = 1
  rw [Nat.cast_one, EReal.coe_one]

theorem ind_zero : ind 0#1 = 0 := by
  show (((0 : ℕ) : ℝ) : EReal) = 0
  rw [Nat.cast_zero, EReal.coe_zero]

/-- A one-bit word's unsigned value is at most one. -/
theorem toNat_le_one (b : BitVec 1) : b.toNat ≤ 1 := by
  have h := b.isLt
  omega

/-- Widening a one-bit word to 32 bits keeps its unsigned value. -/
theorem toNat_widen (b : BitVec 1) : (b.setWidth 32).toNat = b.toNat := by
  rw [BitVec.toNat_setWidth]
  have h := b.isLt
  exact Nat.mod_eq_of_lt (by omega)

/-- One widened bit, read as a signed integer and then as an extended real, is the bit's value. -/
theorem signed_widen (b : BitVec 1) : ((((b.setWidth 32).toInt : ℤ) : ℝ) : EReal) = ind b := by
  have h : (b.setWidth 32).toInt = ((b.toNat : ℕ) : ℤ) := by
    rw [BitVec.toInt_eq_toNat_of_lt (by rw [toNat_widen]; have := toNat_le_one b; omega), toNat_widen]
  rw [h, Int.cast_natCast]
  rfl

/-- The set bits among a finite family are at most as many as the family. -/
theorem sum_toNat_le_card {ι : Type*} (f : ι → BitVec 1) (S : Finset ι) : ∑ k ∈ S, (f k).toNat ≤ S.card := by
  rw [Finset.card_eq_sum_ones]
  exact Finset.sum_le_sum fun k _ => toNat_le_one (f k)

/-- The fold of 32-bit addition over a finite family of widened bits, started at zero, has as its unsigned value the
    number of set bits, as long as the family has fewer than 2^32 members (no carry leaves the word). -/
theorem toNat_fold_widen {ι : Type*} [DecidableEq ι] (f : ι → BitVec 1) (S : Finset ι) (hS : S.card < 2 ^ 32) :
    (S.fold IntOp.addi 0#32 (fun k => (f k).setWidth 32)).toNat = ∑ k ∈ S, (f k).toNat := by
  induction S using Finset.induction_on with
  | empty => rfl
  | insert a S ha ih =>
    have hc : S.card < 2 ^ 32 := by
      rw [Finset.card_insert_of_notMem ha] at hS
      omega
    have hle := sum_toNat_le_card f S
    have h1 := toNat_le_one (f a)
    rw [Finset.fold_insert ha, Finset.sum_insert ha]
    show ((f a).setWidth 32 + S.fold IntOp.addi 0#32 (fun k => (f k).setWidth 32)).toNat = _
    rw [BitVec.toNat_add, ih hc, toNat_widen]
    rw [Finset.card_insert_of_notMem ha] at hS
    exact Nat.mod_eq_of_lt (by omega)

/-- The values of finitely many bits, added as naturals and the total read as an extended real, is the sum of the bits'
    values as extended reals. -/
theorem cast_sum_toNat {ι : Type*} [DecidableEq ι] (f : ι → BitVec 1) (S : Finset ι) :
    (((∑ k ∈ S, (f k).toNat : ℕ) : ℝ) : EReal) = ∑ k ∈ S, ind (f k) := by
  induction S using Finset.induction_on with
  | empty => rw [Finset.sum_empty, Finset.sum_empty, Nat.cast_zero, EReal.coe_zero]
  | insert a S ha ih =>
    rw [Finset.sum_insert ha, Finset.sum_insert ha, Nat.cast_add, EReal.coe_add, ih]
    rfl

/-- THE COUNT: the 32-bit sum of fewer than 2^31 widened bits, read as a SIGNED integer and that as an extended real, is
    the sum of the bits' values (the total is below 2^31, so its sign bit is clear and no carry left the word). -/
theorem signed_fold_widen {ι : Type*} [DecidableEq ι] (f : ι → BitVec 1) (S : Finset ι) (hS : S.card < 2 ^ 31) :
    ((((S.fold IntOp.addi 0#32 (fun k => (f k).setWidth 32)).toInt : ℤ) : ℝ) : EReal) = ∑ k ∈ S, ind (f k) := by
  have hn := toNat_fold_widen f S (by omega)
  have hle := sum_toNat_le_card f S
  have h : (S.fold IntOp.addi 0#32 (fun k => (f k).setWidth 32)).toInt = ((∑ k ∈ S, (f k).toNat : ℕ) : ℤ) := by
    rw [BitVec.toInt_eq_toNat_of_lt (by rw [hn]; omega), hn]
  rw [h, Int.cast_natCast]
  exact cast_sum_toNat f S

end Cert.BitCount
-- ==== Proof.Ternary.lean ====
/-
  Ternary quantisation of a row of weights, on the extended reals.

  For a row `x` of 8192 numbers the THRESHOLD is 0.7 times the mean magnitude of the row, clipped to [0, 100]; an
  entry is KEPT when its magnitude exceeds the threshold; the SCALE is the mean magnitude of the kept entries — their
  sum over their number — clipped to [0, 100]. An entry `a` of the row is quantised to `sign a` times the scale when it
  is kept and to 0 otherwise.

  The same entry can be written without the sign and without the case split: as
  `([threshold < a] - [a < -threshold])` times the scale, the brackets being 1 or 0. The two agree because the
  threshold is never negative: above it in magnitude an entry is either above the threshold itself (and then not below
  its negative) or below the negative (and then not above the threshold), and otherwise it is neither. No finiteness is
  needed: the argument uses only the order of the extended reals and `0 · s = 0`, `1 · s = s`.
-/
import Idealize.ShloMosaic.PureOps.Ideal
import Idealize.ShloMosaic.PureOps.Ideal.Laws
import Idealize.ShloMosaic.Lib.ValueIdx
import proofs.«173971_j71012989272075_2_alg».proof.Proof.LibBitCount

noncomputable section

namespace Cert.Ternary

open Idealize.ShloMosaic Cert.BitCount

/-! ## The four numbers both programs spell, as the extended reals their words denote -/

/-- The word of `0.0`. -/
abbrev zero : EReal := Ideal.ofBits .f32 0x00000000#32
/-- The word of `100.0`, the upper end of both clips. -/
abbrev cap : EReal := Ideal.ofBits .f32 0x42C80000#32
/-- The word nearest `0.7`, the fraction of the mean magnitude that makes the threshold. It is the same word in both
    programs, so its exact value is never needed. -/
abbrev frac : EReal := Ideal.ofBits .f32 0x3F333333#32
/-- The word of `8192.0`, the length of a row. -/
abbrev len : EReal := Ideal.ofBits .f32 0x46000000#32

theorem zero_eq : zero = 0 := Ideal.ofBits_zero_f32

theorem cap_eq : cap = ((100 : ℝ) : EReal) := by
  simp [Ideal.ofBits, Ideal.ieee, -EReal.coe_mul]; norm_num

theorem cap_nonneg : 0 ≤ cap := by
  rw [cap_eq]
  exact_mod_cast (by norm_num : (0 : ℝ) ≤ 100)

/-! ## A row's threshold, kept entries and scale -/

/-- The magnitude of an extended real. -/
def mag (a : EReal) : EReal := max a (-a)

/-- Clipping to [0, 100]. -/
def clip (v : EReal) : EReal := min cap (max zero v)

theorem clip_nonneg (v : EReal) : 0 ≤ clip v :=
  le_min cap_nonneg (by rw [zero_eq]; exact le_max_left 0 v)

/-- The threshold of a row: 0.7 times the mean magnitude, clipped. -/
def thr (x : Fin 8192 → EReal) : EReal := clip (frac * Ideal.div (∑ k, mag (x k)) len)

theorem thr_nonneg (x : Fin 8192 → EReal) : 0 ≤ thr x := clip_nonneg _

/-- Whether `a` is kept against the row `x`: its magnitude exceeds the row's threshold. A one-bit word. -/
def kept (x : Fin 8192 → EReal) (a : EReal) : BitVec 1 := Ideal.cmp .ogt (mag a) (thr x)

/-- How many entries of the row are kept. -/
def count (x : Fin 8192 → EReal) : EReal := ∑ k, ind (kept x (x k))

/-- The sum of the magnitudes of the kept entries. -/
def total (x : Fin 8192 → EReal) : EReal := ∑ k, Scalar.select (kept x (x k)) (mag (x k)) zero

/-- The scale of a row: the mean magnitude of its kept entries, clipped. -/
def scale (x : Fin 8192 → EReal) : EReal := clip (Ideal.div (total x) (count x))

/-- An entry quantised against its row: its sign times the scale when kept, zero otherwise. -/
def quant (x : Fin 8192 → EReal) (a : EReal) : EReal := Scalar.select (kept x a) (Ideal.sign a * scale x) zero

/-- The same entry with neither sign nor case split: `([thr < a] - [a < -thr])` times the scale. -/
def quantBrackets (x : Fin 8192 → EReal) (a : EReal) : EReal :=
  (ind (Ideal.cmp .ogt a (thr x)) - ind (Ideal.cmp .olt a (-(thr x)))) * scale x

/-! ## The law -/

theorem ind_true : ind (BitVec.ofBool true) = 1 := ind_one
theorem ind_false : ind (BitVec.ofBool false) = 0 := ind_zero

theorem select_true {α : Type} (u v : α) : Scalar.select (BitVec.ofBool true) u v = u := if_pos rfl
theorem select_false {α : Type} (u v : α) : Scalar.select (BitVec.ofBool false) u v = v := if_neg (by decide)

/-- For a threshold `d ≥ 0` and any scale `s`: the difference of the two brackets times `s` is `sign a · s` where
    `|a| > d` and `0` elsewhere. -/
theorem brackets_eq (d s a : EReal) (hd : 0 ≤ d) :
    (ind (Ideal.cmp .ogt a d) - ind (Ideal.cmp .olt a (-d))) * s
      = Scalar.select (Ideal.cmp .ogt (max a (-a)) d) (Ideal.sign a * s) 0 := by
  show (ind (BitVec.ofBool (decide (d < a))) - ind (BitVec.ofBool (decide (a < -d)))) * s
      = Scalar.select (BitVec.ofBool (decide (d < max a (-a)))) (Ideal.sign a * s) 0
  by_cases hk : d < max a (-a)
  · rw [decide_eq_true hk, select_true]
    rcases lt_max_iff.mp hk with h | h
    · -- above the threshold: positive, and not below the threshold's negative
      have hpos : 0 < a := lt_of_le_of_lt hd h
      have hn : ¬ a < -d := not_lt.mpr (le_trans (EReal.neg_le_zero.mpr hd) hpos.le)
      rw [decide_eq_true h, decide_eq_false hn, ind_true, ind_false, Ideal.sign_of_pos hpos, sub_zero]
    · -- below the threshold's negative: negative, and not above the threshold
      have hlt : a < -d := EReal.lt_neg_comm.mp h
      have hneg : a < 0 := lt_of_lt_of_le hlt (EReal.neg_le_zero.mpr hd)
      have hn : ¬ d < a := not_lt.mpr (le_trans hneg.le hd)
      rw [decide_eq_false hn, decide_eq_true hlt, ind_true, ind_false, Ideal.sign_of_neg hneg, zero_sub]
  · rw [decide_eq_false hk, select_false]
    have hle : max a (-a) ≤ d := not_lt.mp hk
    have h1 : ¬ d < a := not_lt.mpr (le_trans (le_max_left _ _) hle)
    have h2 : ¬ a < -d := not_lt.mpr (EReal.neg_le.mp (le_trans (le_max_right _ _) hle))
    rw [decide_eq_false h1, decide_eq_false h2, ind_false, sub_zero, zero_mul]

/-- THE LAW: the bracket form of an entry is its quantisation. -/
theorem quantBrackets_eq_quant (x : Fin 8192 → EReal) (a : EReal) : quantBrackets x a = quant x a := by
  unfold quantBrackets quant kept mag
  rw [brackets_eq (thr x) (scale x) a (thr_nonneg x), zero_eq]

/-! ## The whole array -/

/-- Row `r` of an 8192 × 8192 array. -/
def row (w : (⟨2, ![8192, 8192]⟩ : Shape).Idx → EReal) (r : Fin 8192) : Fin 8192 → EReal :=
  fun k => w (ValueIdx.ix2 r k)

/-- THE QUANTISED ARRAY: every entry quantised against its own row. -/
def G (w : (⟨2, ![8192, 8192]⟩ : Shape).Idx → EReal) : (⟨2, ![8192, 8192]⟩ : Shape).Idx → EReal :=
  fun i => quant (row w ⟨(i 0).val, ValueIdx.idx2_lt0 i⟩) (w i)

theorem G_apply (w : (⟨2, ![8192, 8192]⟩ : Shape).Idx → EReal) (r j : Fin 8192) :
    G w (ValueIdx.ix2 r j) = quant (row w r) (w (ValueIdx.ix2 r j)) := rfl

end Cert.Ternary

end
-- ==== Proof.KernelBlock.lean ====
/-
  The kernel body on one block, row by row.

  The body loads a block of 128 whole rows, and for every row of the block computes the row's threshold, kept-bits, number
  of kept entries (each bit converted to a float, the floats added) and sum of kept magnitudes, hence the row's scale, and
  stores `sign a` times the scale where the entry is kept and 0 elsewhere. Its vector terms are named here one by one and
  read at a row: a lane sum is the sum over the row's 8192 columns, a keepdims column broadcast back reads its own row, and
  the printed sign term is `Ideal.sign`. So the block the body leaves is, entry by entry, `Cert.Ternary.quant` of the
  entry against its row of the block.
-/
import proofs.«173971_j71012989272075_2_alg».proof.Proof.KernelValueP
import proofs.«173971_j71012989272075_2_alg».proof.Proof.Ternary
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Cert.KernelIdeal.ValueP
open Idealize.ShloMosaic Idealize.ShloMosaic.ValueIdx Cert.Ternary Cert.BitCount

/-! ## Three reads at a row -/

/-- A lane sum of a [128, 8192] vector, at row `p`, is the sum over the row's columns. -/
theorem laneSum_row (v : FVec Ideal S128x8192 .f32) (p : Fin 128) :
    multiReduction .add [1] S128 v 0x00000000#32 reduces_S128x8192_S128 (.inl rfl) rfl (ix1 p)
      = ∑ k : Fin 8192, v (ix2 p k) := by
  refine (Ideal.multiReduction_add_single v 0x00000000#32 reduces_S128x8192_S128 (.inl rfl) rfl (ix1 p)).trans ?_
  exact Finset.sum_congr rfl fun k _ =>
    congrArg v (funext fun a => Fin.ext (by match a with | ⟨0, _⟩ => rfl | ⟨1, _⟩ => rfl))

/-- A [128] vector reshaped to a [128, 1] column reads its own entry. -/
theorem column_read (v : FVec Ideal S128 .f32) (p : Fin 128) :
    shapeCast S128x1 v shapeCasts_S128_S128x1 (ix2 p (0 : Fin 1)) = v (ix1 p) :=
  shapeCast_apply v shapeCasts_S128_S128x1 (ix2 p (0 : Fin 1)) (ix1 p)
    (by rw [Shape.rowMajor_val_one, Shape.rowMajor_val_two]; show p.val = p.val * 1 + 0; omega)

/-- A [128, 1] column broadcast along the rows reads, anywhere in row `p`, the column's entry `p`. -/
theorem spread_read (u : FVec Ideal S128x1 .f32) (p : Fin 128) (q : Fin 8192) :
    broadcastTo S128x8192 u broadcasts_S128x1_S128x8192 (ix2 p q) = u (ix2 p (0 : Fin 1)) :=
  broadcastTo_apply u broadcasts_S128x1_S128x8192 (ix2 p q) (ix2 p (0 : Fin 1)) (fun a => match a with
    | ⟨0, _⟩ => by show p.val = (if (128 : Nat) = 1 then 0 else p.val); rw [if_neg (by decide)]
    | ⟨1, _⟩ => by show 0 = (if (1 : Nat) = 1 then 0 else q.val); rw [if_pos rfl])

/-! ## The body's vector terms, named -/

variable (P0 : Vec Ideal S128x8192 .f32)

/-- Row `p` of the block. -/
def brow (p : Fin 128) : Fin 8192 → EReal := fun k => P0 (ix2 p k)

/-- The rows' sums of magnitudes. -/
def sumAbsV : FVec Ideal S128 .f32 :=
  multiReduction .add [1] S128 (absf P0) 0x00000000#32 reduces_S128x8192_S128 (.inl rfl) rfl

/-- The rows' thresholds, as a [128, 1] column. -/
def thrColV : FVec Ideal S128x1 .f32 :=
  minimumf (broadcast S128x1 (Scalar.ofBits (F := Ideal) .f32 0x42C80000#32))
    (maximumf (broadcast S128x1 (Scalar.ofBits (F := Ideal) .f32 0x00000000#32))
      (mulf (broadcast S128x1 (Scalar.ofBits (F := Ideal) .f32 0x3F333333#32))
        (divf (shapeCast S128x1 (sumAbsV P0) shapeCasts_S128_S128x1)
          (broadcast S128x1 (Scalar.ofBits (F := Ideal) .f32 0x46000000#32)))))

/-- The kept-bits of the block. -/
def keptV : IVec S128x8192 1 :=
  cmpf .ogt (absf P0) (broadcastTo S128x8192 (thrColV P0) broadcasts_S128x1_S128x8192)

/-- The rows' sums of kept magnitudes. -/
def totalV : FVec Ideal S128 .f32 :=
  multiReduction .add [1] S128
    (select (keptV P0) (absf P0) (broadcast S128x8192 (Scalar.ofBits (F := Ideal) .f32 0x00000000#32)))
    0x00000000#32 reduces_S128x8192_S128 (.inl rfl) rfl

/-- The rows' numbers of kept entries: every bit converted to a float, the floats added. -/
def countV : FVec Ideal S128 .f32 :=
  multiReduction .add [1] S128 (sitofp (F := Ideal) .f32 (extui 32 (keptV P0) natLt_1_32))
    0x00000000#32 reduces_S128x8192_S128 (.inl rfl) rfl

theorem sumAbs_row (p : Fin 128) : sumAbsV P0 (ix1 p) = ∑ k, mag (brow P0 p k) :=
  laneSum_row (absf P0) p

theorem thrCol_row (p : Fin 128) : thrColV P0 (ix2 p (0 : Fin 1)) = thr (brow P0 p) := by
  show min cap (max zero (frac * Ideal.div
      (shapeCast S128x1 (sumAbsV P0) shapeCasts_S128_S128x1 (ix2 p (0 : Fin 1))) len)) = _
  rw [column_read, sumAbs_row]
  rfl

theorem kept_entry (p : Fin 128) (k : Fin 8192) : keptV P0 (ix2 p k) = kept (brow P0 p) (P0 (ix2 p k)) := by
  show Ideal.cmp .ogt (max (P0 (ix2 p k)) (-(P0 (ix2 p k))))
      (broadcastTo S128x8192 (thrColV P0) broadcasts_S128x1_S128x8192 (ix2 p k)) = _
  rw [spread_read, thrCol_row]
  rfl

theorem total_row (p : Fin 128) : totalV P0 (ix1 p) = total (brow P0 p) := by
  refine (laneSum_row _ p).trans ?_
  refine Finset.sum_congr rfl fun k _ => ?_
  show Scalar.select (keptV P0 (ix2 p k)) (mag (P0 (ix2 p k))) Ternary.zero = _
  rw [kept_entry]
  rfl

theorem count_row (p : Fin 128) : countV P0 (ix1 p) = count (brow P0 p) := by
  refine (laneSum_row _ p).trans ?_
  refine Finset.sum_congr rfl fun k _ => ?_
  show (((((keptV P0 (ix2 p k)).setWidth 32).toInt : ℤ) : ℝ) : EReal) = ind (kept (brow P0 p) (brow P0 p k))
  rw [kept_entry]
  exact signed_widen _

/-! ## The block's entry -/

/-- The body's scalar expression at one index, over the seven values it reads there. -/
def entryOf (a0 s1 a2 a3 a4 s5 s6 : Ideal .f32) : Ideal .f32 :=
  Scalar.select
    (FloatOps.cmpf .ogt (FloatOps.absf a0)
      (FloatOps.minimumf (Scalar.ofBits .f32 0x42C80000#32)
        (FloatOps.maximumf (Scalar.ofBits .f32 0x00000000#32)
          (FloatOps.mulf (Scalar.ofBits .f32 0x3F333333#32) (FloatOps.divf s1 (Scalar.ofBits .f32 0x46000000#32))))))
    (FloatOps.mulf
      (Scalar.select (FloatOps.cmpf .ogt (FloatOps.absf a2) (Scalar.ofBits .f32 0x00000000#32))
        (Scalar.select (FloatOps.cmpf .olt a3 (Scalar.ofBits .f32 0x00000000#32)) (Scalar.ofBits .f32 0xBF800000#32)
          (Scalar.ofBits .f32 0x3F800000#32)) a4)
      (FloatOps.minimumf (Scalar.ofBits .f32 0x42C80000#32)
        (FloatOps.maximumf (Scalar.ofBits .f32 0x00000000#32) (FloatOps.divf s5 s6))))
    (Scalar.ofBits .f32 0x00000000#32)

/-- The block the body leaves, at an index, is that expression of the block's entry there and of the three row
    vectors at the index's row. -/
theorem E1_entryOf (y : S128x8192.Idx) :
    E1 (F := Ideal) P0 y = entryOf (P0 (ix1_0 y)) (sumAbsV P0 (ix1_1 y)) (P0 (ix1_2 y)) (P0 (ix1_3 y)) (P0 (ix1_4 y))
      (totalV P0 (ix1_5 y)) (countV P0 (ix1_6 y)) := rfl

/-- With one entry `a` in every place and a row's three sums, the expression is the entry's quantisation: the printed
    sign term is `Ideal.sign a`. -/
theorem entryOf_quant (x : Fin 8192 → EReal) (a : EReal) :
    entryOf a (∑ k, mag (x k)) a a a (total x) (count x) = quant x a := by
  unfold entryOf
  rw [Ideal.jnp_sign_eq_sign_f32]
  rfl

theorem at0 (p : Fin 128) (q : Fin 8192) : ix1_0 (ix2 p q) = ix2 p q :=
  funext fun a => by match a with | ⟨0, _⟩ => rfl | ⟨1, _⟩ => rfl
theorem at1 (p : Fin 128) (q : Fin 8192) : ix1_1 (ix2 p q) = ix1 p :=
  funext fun a => by match a with | ⟨0, _⟩ => rfl
theorem at2 (p : Fin 128) (q : Fin 8192) : ix1_2 (ix2 p q) = ix2 p q :=
  funext fun a => by match a with | ⟨0, _⟩ => rfl | ⟨1, _⟩ => rfl
theorem at3 (p : Fin 128) (q : Fin 8192) : ix1_3 (ix2 p q) = ix2 p q :=
  funext fun a => by match a with | ⟨0, _⟩ => rfl | ⟨1, _⟩ => rfl
theorem at4 (p : Fin 128) (q : Fin 8192) : ix1_4 (ix2 p q) = ix2 p q :=
  funext fun a => by match a with | ⟨0, _⟩ => rfl | ⟨1, _⟩ => rfl
theorem at5 (p : Fin 128) (q : Fin 8192) : ix1_5 (ix2 p q) = ix1 p :=
  funext fun a => by match a with | ⟨0, _⟩ => rfl
theorem at6 (p : Fin 128) (q : Fin 8192) : ix1_6 (ix2 p q) = ix1 p :=
  funext fun a => by match a with | ⟨0, _⟩ => rfl

/-- THE BLOCK: what the body leaves at row `p`, column `q` is the block's entry there quantised against row `p` of
    the block. -/
theorem block_entry (p : Fin 128) (q : Fin 8192) :
    E1 (F := Ideal) P0 (ix2 p q) = quant (brow P0 p) (P0 (ix2 p q)) := by
  rw [E1_entryOf, at0, at1, at2, at3, at4, at5, at6, sumAbs_row, total_row, count_row]
  exact entryOf_quant _ _

end Cert.KernelIdeal.Block

end
-- ==== Proof.KernelArray.lean ====
/-
  From the blocks to the array.

  The grid has 64 points. At point `t` the input window stages rows `128 t … 128 t + 127` of the argument array, all 8192
  columns, and the output window writes the same rows of the result back. A row of the input block is therefore a whole
  row of the array, so what the body leaves in the block — every entry quantised against its row of the block
  (`Block.block_entry`) — is the same rows of the quantised array `Ternary.G`; and the 64 blocks of 128 rows cover the
  8192 rows, so the result array ends holding `G` of the argument.
-/
import proofs.«173971_j71012989272075_2_alg».proof.Proof.KernelBlock
import Idealize.ShloMosaic.Lib.Pipeline.Value

noncomputable section

namespace Cert.KernelIdeal.Whole

open Cert.KernelIdeal Cert.KernelIdeal.Gen Cert.KernelIdeal.ValueP Cert.KernelIdeal.Block
open Idealize.ShloMosaic Idealize.ShloMosaic.TcCoe Idealize.SL.Sem Idealize.ShloMosaic.ValueIdx Cert.Ternary
open Idealize.ShloMosaic.Pipeline (Dat)

/-- A block whose row `p` is row `128 n + p` of an array `W` is left by the body holding the same rows of `G W`. -/
theorem rows_of_G (W : S8192x8192.Idx → EReal) (B : Vec Ideal S128x8192 .f32) (n : Nat)
    (hB : ∀ (p : Fin 128) (k R : Fin 8192), R.val = 128 * n + p.val → B (ix2 p k) = W (ix2 R k))
    (p : Fin 128) (q R : Fin 8192) (hR : R.val = 128 * n + p.val) :
    E1 (F := Ideal) B (ix2 p q) = G W (ix2 R q) := by
  have hrow : brow B p = row W R := funext fun k => hB p k R hR
  rw [block_entry, G_apply, hB p q R hR, hrow]

variable (m : (ℓ : Loc nD τ sig) → Buf (Elt Ideal) ℓ) (ρ : Dev nD → PrngReg)

theorem zeroOffsets : (![0, 0] : Fin 2 → Nat) = fun _ => 0 := funext fun a => by fin_cases a <;> rfl

/-- The printed index maps, decided over the 64 grid points: at point `t` both windows' block is block row `t` of the
    one block column. -/
theorem blockRow : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Row `p` of the input block at point `t` is row `128 t + p` of the argument array as the region finds it. -/
theorem inBlock_read (c : Dev nD) (t : Fin cfg0.N) (p : Fin 128) (k R : Fin 8192) (hR : R.val = 128 * t.val + p.val) :
    (iblk m c 0 t : Vec Ideal S128x8192 .f32) (ix2 p k) = V m c main_arg0 (ix2 R k) := by
  obtain ⟨e0, e1, -, -⟩ := blockRow t
  unfold iblk
  rw [View.read_apply]
  show V m c main_arg0 _ = V m c main_arg0 _
  congr 1
  funext a
  apply Fin.ext
  match a with
  | ⟨0, _⟩ => show win0_0.index t (0 : Fin 2) * 128 + 1 * p.val = R.val; rw [e0, hR]; omega
  | ⟨1, _⟩ => show win0_0.index t (1 : Fin 2) * 8192 + 1 * k.val = k.val; rw [e1]; omega

/-- WHAT POINT `t` WRITES BACK is block `t` of the quantised array. -/
theorem flushed_eq (c : Dev nD) (t : Fin cfg0.N) :
    (dats m 0 c).flushed 1 t = ((cfg0.win 1).blk t).view.read (Elt Ideal) (G (V m c main_arg0)) := by
  obtain ⟨-, -, e2, e3⟩ := blockRow t
  have hN : cfg0.N = 64 := N_0
  rw [flushed1]
  unfold out0_1
  simp only [View.ld_unit_zero (S := S128x8192) zeroOffsets]
  funext j
  obtain ⟨p, q, rfl⟩ : ∃ (p : Fin 128) (q : Fin 8192), j = ix2 p q := ⟨j 0, j 1, eq_ix2 j⟩
  have hlt : 128 * t.val + p.val < 8192 := by
    have h1 := t.isLt
    have h2 := p.isLt
    omega
  show View.canon ([⟨r0_0, k0_pay1 (iblk m c 0 t)⟩] : List (View.Piece (Elt Ideal) S128x8192 .f32)) (ix2 p q)
      = G (V m c main_arg0) (((cfg0.win 1).blk t).view.emb (ix2 p q))
  have hemb : ((cfg0.win 1).blk t).view.emb (ix2 p q) = ix2 (⟨128 * t.val + p.val, hlt⟩ : Fin 8192) q :=
    funext fun a => Fin.ext (by
      match a with
      | ⟨0, _⟩ => show win0_1.index t (0 : Fin 2) * 128 + 1 * p.val = 128 * t.val + p.val; rw [e2]; omega
      | ⟨1, _⟩ => show win0_1.index t (1 : Fin 2) * 8192 + 1 * q.val = q.val; rw [e3]; omega)
  rw [hemb]
  refine (canon1_eq (iblk m c 0 t) (ix2 p q)).trans ?_
  exact rows_of_G (V m c main_arg0) (iblk m c 0 t) t.val (fun p k R h => inBlock_read m c t p k R h) p q _ rfl

/-- An index of the array is in point `t`'s block iff each coordinate is in the block's range on its axis. -/
theorem mem_block (t : Fin cfg0.N) (i : S8192x8192.Idx) :
    i ∈ ((cfg0.win 1).blk t).view.set ↔ ∀ a : Fin 2, win0_1.index t a * S128x8192.size a ≤ (i a).val
      ∧ (i a).val < win0_1.index t a * S128x8192.size a + S128x8192.size a := by
  show i ∈ ((View.whole main_v0).slice (win0_1.rect t)).set ↔ _
  rw [View.set_slice_whole, Rect.mem_set_unit]
  exact Iff.rfl

/-- Every index of the array is in the block of the point its row falls in: row `r` is in block `r / 128`. -/
theorem covered (i : S8192x8192.Idx) :
    ∃ t : Fin cfg0.N, (cfg0.win 1).flush t = true ∧ i ∈ ((cfg0.win 1).blk t).view.set := by
  have hN : cfg0.N = 64 := N_0
  have hi0 : (i 0).val < 8192 := (i 0).isLt
  have hi1 : (i 1).val < 8192 := (i 1).isLt
  let t : Fin cfg0.N := ⟨(i 0).val / 128, by rw [hN]; omega⟩
  obtain ⟨-, -, e2, e3⟩ := blockRow t
  have ht : t.val = (i 0).val / 128 := rfl
  refine ⟨t, flush0_1 t, ?_⟩
  rw [mem_block]
  intro a
  match a with
  | ⟨0, _⟩ =>
    show win0_1.index t (0 : Fin 2) * 128 ≤ (i 0).val ∧ (i 0).val < win0_1.index t (0 : Fin 2) * 128 + 128
    rw [e2, ht]; omega
  | ⟨1, _⟩ =>
    show win0_1.index t (1 : Fin 2) * 8192 ≤ (i 1).val ∧ (i 1).val < win0_1.index t (1 : Fin 2) * 8192 + 8192
    rw [e3]; omega

/-- THE RESULT ARRAY after the run is the quantised argument array. -/
theorem final (c : Dev nD) : (dats m 0 c).arrAt 1 cfg0.N = G (m ((c : Thread nD τ).loc main_arg0)) := by
  rw [← V_main_arg0 m c]
  exact (dats m 0 c).arrAt_eq_of_cover 1 (G (V m c main_arg0)) (fun t _ => flushed_eq m c t) covered

/-- THE RUN: every weakly fair execution of the kernel's program ends with the result array holding the quantised
    argument array and the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Whole

end
-- ==== Proof.RefRows.lean ====
/-
  The reference program, row by row.

  The reference computes, for the whole 8192 × 8192 array at once, each row's threshold (the clipped 0.7 · mean magnitude),
  the array of kept-bits (magnitude above the row's threshold), each row's number of kept entries — the bits added as
  32-bit INTEGERS and the total converted to a float —, each row's sum of kept magnitudes, each row's scale, and then every
  entry as `([threshold < a] - [a < -threshold])` times its row's scale. Read at one index, each stage is the
  corresponding quantity of `Cert.Ternary` for the index's row; the integer count is the sum of the bits' values because
  8192 bits cannot overflow 32 bits; and the bracket form of an entry is its quantisation (`Ternary.quantBrackets_eq_quant`).
-/
import proofs.«173971_j71012989272075_2_alg».proof.Proof.Gen.ReferenceIdeal.Read
import proofs.«173971_j71012989272075_2_alg».proof.Proof.Ternary
import Idealize.ShloMosaic.Lib.ValueIdx
import Idealize.ShloMosaic.PureOps.Reduce

noncomputable section

namespace Cert.ReferenceIdeal.Rows

open Cert.ReferenceIdeal Cert.ReferenceIdeal.Gen Cert.ReferenceIdeal.Read
open Idealize.ShloMosaic Idealize.ShloMosaic.ValueIdx Cert.Ternary Cert.BitCount

/-! ## The composed index functions of the generated stage lemmas, at an index given by its coordinates -/

theorem sum_idx_v1 (r k : Fin 8192) : idx_main_v1 (ix1 r) k = ix2 r k :=
  funext fun a => Fin.ext (by match a with | ⟨0, _⟩ => rfl | ⟨1, _⟩ => rfl)
theorem sum_idx_v14 (r k : Fin 8192) : idx_main_v14 (ix1 r) k = ix2 r k :=
  funext fun a => Fin.ext (by match a with | ⟨0, _⟩ => rfl | ⟨1, _⟩ => rfl)
theorem col_idx_v8 (r k : Fin 8192) : idx_main_v7 (idx_main_v8 (ix2 r k)) = ix1 r :=
  funext fun a => Fin.ext (by match a with | ⟨0, _⟩ => rfl)
theorem col_idx_v17 (r k : Fin 8192) : idx_main_v7 (idx_main_v17 (ix2 r k)) = ix1 r :=
  funext fun a => Fin.ext (by match a with | ⟨0, _⟩ => rfl)
theorem col_idx_v21 (r k : Fin 8192) : idx_main_v7 (idx_main_v21 (ix2 r k)) = ix1 r :=
  funext fun a => Fin.ext (by match a with | ⟨0, _⟩ => rfl)
theorem col_idx_v26 (r k : Fin 8192) : idx_main_v25 (idx_main_v26 (ix2 r k)) = ix1 r :=
  funext fun a => Fin.ext (by match a with | ⟨0, _⟩ => rfl)

variable (w : (⟨S8192x8192, .f32⟩ : BufTy).Contents (Elt Ideal))

/-! ## The stages at a row -/

/-- The row sums of the magnitudes. -/
theorem sumAbs_row (r : Fin 8192) : val_main_v1 (F := Ideal) w (ix1 r) = ∑ k, mag (row w r k) := by
  rw [val_main_v1_apply, val_main_cst_apply]
  simp only [val_main_v0_apply, sum_idx_v1]
  show Ternary.zero + _ = _
  rw [zero_eq, zero_add]
  rfl

/-- The clipped thresholds. -/
theorem thr_row (r : Fin 8192) : val_main_v6 (F := Ideal) w (ix1 r) = thr (row w r) := by
  rw [val_main_v6_apply, val_main_call0_v4_apply, val_main_call0_v3_apply, val_main_cst_3_apply,
    val_main_call0_v2_apply, val_main_call0_v1_apply, val_main_call0_v0_apply, val_main_cst_2_apply,
    val_main_v5_apply, val_main_v4_apply, val_main_cst_1_apply, val_main_v3_apply, val_main_v2_apply,
    val_main_cst_0_apply, sumAbs_row]
  rfl

/-- The kept-bits. -/
theorem kept_entry (r k : Fin 8192) : val_main_v9 (F := Ideal) w (ix2 r k) = kept (row w r) (w (ix2 r k)) := by
  rw [val_main_v9_apply, val_main_v0_apply, val_main_v8_apply, val_main_v7_apply, col_idx_v8, thr_row]
  rfl

/-- The row sums of the kept magnitudes. -/
theorem total_row (r : Fin 8192) : val_main_v14 (F := Ideal) w (ix1 r) = total (row w r) := by
  rw [val_main_v14_apply, val_main_cst_5_apply]
  simp only [val_main_v13_apply, sum_idx_v14, kept_entry, val_main_v0_apply, val_main_call1_v1_apply,
    val_main_call1_v0_apply, val_main_cst_4_apply]
  show Ternary.zero + _ = _
  rw [zero_eq, zero_add]
  rfl

/-- The numbers of kept entries: the kept-bits of a row, widened to 32 bits and added as integers, then converted — 8192
    of them, far fewer than 2^31, so the total is their number. -/
theorem count_row (r : Fin 8192) : val_main_v12 (F := Ideal) w (ix1 r) = count (row w r) := by
  have hred : S8192x8192.Reduces [1] S8192 := by decide
  have hlift : ∀ k : Fin 8192, hred.lift (ix1 r) k = ix2 r k := fun k =>
    funext fun a => Fin.ext (by match a with | ⟨0, _⟩ => rfl | ⟨1, _⟩ => rfl)
  have hfold : Host.reduce IntOp.addi (val_main_v10 (F := Ideal) w) (val_main_c (F := Ideal))
        reducesTo_S8192x8192_S8192_d1 h_S_ (ix1 r)
      = (Finset.univ : Finset (Fin 8192)).fold IntOp.addi 0#32
          (fun k : Fin 8192 => (kept (row w r) (row w r k)).setWidth 32) := by
    refine (Host.reduce_eq_fold_single IntOp.addi _ _ reducesTo_S8192x8192_S8192_d1 hred h_S_ (ix1 r)).trans ?_
    refine Finset.fold_congr fun (k : Fin 8192) _ => ?_
    show val_main_v10 (F := Ideal) w (hred.lift (ix1 r) k) = _
    rw [hlift k, val_main_v10_apply, kept_entry]
    rfl
  rw [val_main_v12_apply]
  show FloatOps.sitofp (F := Ideal) .f32 (Host.reduce IntOp.addi (val_main_v10 (F := Ideal) w) (val_main_c (F := Ideal))
      reducesTo_S8192x8192_S8192_d1 h_S_ (ix1 r)) = _
  rw [hfold]
  exact signed_fold_widen (fun k : Fin 8192 => kept (row w r) (row w r k)) Finset.univ
    (by rw [Finset.card_univ, Fintype.card_fin]; norm_num)

/-- The clipped scales. -/
theorem scale_row (r : Fin 8192) : val_main_v16 (F := Ideal) w (ix1 r) = scale (row w r) := by
  rw [val_main_v16_apply, val_main_call2_v4_apply, val_main_call2_v3_apply, val_main_cst_7_apply,
    val_main_call2_v2_apply, val_main_call2_v1_apply, val_main_call2_v0_apply, val_main_cst_6_apply,
    val_main_v15_apply, total_row, count_row]
  rfl

/-! ## The result -/

/-- Every entry of the reference's result is the bracket form of the entry against its row. -/
theorem result_entry (r j : Fin 8192) :
    val_main_v27 (F := Ideal) w (ix2 r j) = quantBrackets (row w r) (w (ix2 r j)) := by
  rw [val_main_v27_apply, val_main_v24_apply, val_main_v19_apply, val_main_v18_apply, val_main_v17_apply,
    val_main_v7_apply, col_idx_v17, thr_row, val_main_v23_apply, val_main_v22_apply, val_main_v21_apply,
    val_main_v20_apply, val_main_v7_apply, col_idx_v21, thr_row, val_main_v26_apply, val_main_v25_apply,
    col_idx_v26, scale_row]
  rfl

/-- THE REFERENCE'S RESULT is the quantised array. -/
theorem result_eq : val_main_v27 (F := Ideal) w = G w := by
  funext i
  obtain ⟨r, j, rfl⟩ : ∃ (r j : Fin 8192), i = ix2 r j := ⟨i 0, i 1, eq_ix2 i⟩
  rw [result_entry, quantBrackets_eq_quant, G_apply]

end Cert.ReferenceIdeal.Rows

end
-- ==== Proof.lean ====
/-
  Per-row ternary quantisation of an 8192 × 8192 array of weights: the kernel against its reference, on the extended reals.

  Both programs compute, for every row, the threshold `δ` = 0.7 · (mean magnitude of the row) clipped to [0, 100], keep the
  entries whose magnitude exceeds `δ`, and take as the row's scale `α` the mean magnitude of the kept entries, clipped to
  [0, 100] (`Cert.Ternary`). They differ in three places, none of which changes a value on the extended reals:

  * the kernel works on blocks of 128 whole rows, one block per grid point; a row's quantities depend on that row only,
    and the 64 blocks cover the array (`Cert.KernelIdeal.Block`, `Cert.KernelIdeal.Whole`);
  * the kernel counts the kept entries by converting every kept-bit to a float and adding the floats, the reference by
    adding the bits as 32-bit integers and converting the total: 8192 bits cannot overflow 32 bits, so the two counts are
    one number (`Cert.BitCount`, `Cert.ReferenceIdeal.Rows.count_row`);
  * the kernel stores `sign a · α` where `a` is kept and `0` elsewhere, the reference `([δ < a] - [a < -δ]) · α`
    everywhere: since `δ ≥ 0` these agree (`Cert.Ternary.quantBrackets_eq_quant`).

  So both result arrays are `Cert.Ternary.G` of the argument array. The kernel's sign is printed from a sign-bit idiom;
  that the printed comparison form is its idealization is the one conjunct of `preserves`. The three frames are the
  generated ones (the reference's is its generated run with the result dropped). The input's finiteness is not used.
-/
import proofs.«173971_j71012989272075_2_alg».proof.Defs
import proofs.«173971_j71012989272075_2_alg».proof.Proof.Gen.Kernel
import proofs.«173971_j71012989272075_2_alg».proof.Proof.Gen.Kernel.Skeleton
import proofs.«173971_j71012989272075_2_alg».proof.Proof.Gen.Kernel.Launch
import proofs.«173971_j71012989272075_2_alg».proof.Proof.Gen.Kernel.Points
import proofs.«173971_j71012989272075_2_alg».proof.Proof.Gen.Kernel.Frame
import proofs.«173971_j71012989272075_2_alg».proof.Proof.Gen.KernelIdeal
import proofs.«173971_j71012989272075_2_alg».proof.Proof.Gen.KernelIdeal.Skeleton
import proofs.«173971_j71012989272075_2_alg».proof.Proof.Gen.KernelIdeal.Launch
import proofs.«173971_j71012989272075_2_alg».proof.Proof.Gen.KernelIdeal.Points
import proofs.«173971_j71012989272075_2_alg».proof.Proof.Gen.KernelIdeal.Frame
import proofs.«173971_j71012989272075_2_alg».proof.Proof.Gen.ReferenceIdeal
import proofs.«173971_j71012989272075_2_alg».proof.Proof.Gen.Pre_finite_inputs
import proofs.«173971_j71012989272075_2_alg».proof.Proof.Gen.ReferenceIdeal.Run
import proofs.«173971_j71012989272075_2_alg».proof.Proof.Gen.ReferenceIdeal.Read
import proofs.«173971_j71012989272075_2_alg».proof.Proof.KernelArray
import proofs.«173971_j71012989272075_2_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its argument as it found it. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: `1.0` carrying an element's sign bit, read as `-1` below zero and `1` otherwise. -/
theorem preserves : Cert.preserves_Kernel_KernelIdeal :=
  IdealRules.sign_bit.statement Cert.KernelIdeal.S128x8192 .f32

/-- From memories that agree on the argument, both programs end with the quantised argument array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.Rows.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
